-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32x128 : Shape := ⟨3, ![50000, 32, 128]⟩
abbrev S_ : Shape := ⟨0, ![]⟩

class Facts : Prop where
  bcast_S_S50000x32x128 : S_.BroadcastsInDim S50000x32x128 (![] : Fin 0 → Fin S50000x32x128.rank)
  reducesTo_S50000x32x128_S_d0_1_2 : S50000x32x128.ReducesTo [0, 1, 2] S_
  h_S_ : 0 < S_.numel

variable [Facts]

def fn {F : FTy → Type} [FloatOps F] (main_arg0 : FVec F S50000x32x128 .f32) : IVec S_ 1 :=
  let main_v0 : FVec F S50000x32x128 .f32 := Host.absf main_arg0
  let main_cst : FVec F S_ .f32 := constant S_ .f32 0x7F800000#32
  let main_v1 : FVec F S50000x32x128 .f32 := broadcastInDim S50000x32x128 ![] bcast_S_S50000x32x128 main_cst
  let main_v2 : IVec S50000x32x128 1 := cmpf .olt main_v0 main_v1
  let main_c : IVec S_ 1 := constantI S_ 1 1#1
  let main_v3 : IVec S_ 1 := (fun x v => Host.reduce IntOp.andi x v reducesTo_S50000x32x128_S_d0_1_2 h_S_) main_v2 main_c
  main_v3
-- ==== Kernel.lean ====
abbrev S50000x32x128 : Shape := ⟨3, ![50000, 32, 128]⟩
abbrev S50000x128 : Shape := ⟨2, ![50000, 128]⟩
abbrev S1000x32x128 : Shape := ⟨3, ![1000, 32, 128]⟩
abbrev S1000x128 : Shape := ⟨2, ![1000, 128]⟩
abbrev S1000x8x128 : Shape := ⟨3, ![1000, 8, 128]⟩

abbrev nBuf : Space → Nat
  | .hbm => 2
  | .vmem => 4
  | .smem => 0
  | _ => 0

abbrev bufTy : (tb : Table) → Fin (tcTables nBuf tb) → BufTy
  | .hbm, ⟨0, _⟩ => ⟨S50000x32x128, .f32⟩
  | .hbm, ⟨1, _⟩ => ⟨S50000x128, .f32⟩
  | .local _ .vmem, ⟨0, _⟩ => ⟨S1000x32x128, .f32⟩
  | .local _ .vmem, ⟨1, _⟩ => ⟨S1000x32x128, .f32⟩
  | .local _ .vmem, ⟨2, _⟩ => ⟨S1000x128, .f32⟩
  | .local _ .vmem, ⟨3, _⟩ => ⟨S1000x128, .f32⟩
  | _, _ => ⟨S50000x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1000x32x128_S1000x8x128_0_0_0 : ∀ a, (![0, 0, 0] : Fin 3 → Nat) a + S1000x8x128.size a ≤ S1000x32x128.size a
  h_S1000x8x128 : 0 < S1000x8x128.numel
  reduces_S1000x8x128_S1000x128 : S1000x8x128.Reduces [1] S1000x128
  inb_S1000x32x128_S1000x8x128_0_8_0 : ∀ a, (![0, 8, 0] : Fin 3 → Nat) a + S1000x8x128.size a ≤ S1000x32x128.size a
  inb_S1000x32x128_S1000x8x128_0_16_0 : ∀ a, (![0, 16, 0] : Fin 3 → Nat) a + S1000x8x128.size a ≤ S1000x32x128.size a
  inb_S1000x32x128_S1000x8x128_0_24_0 : ∀ a, (![0, 24, 0] : Fin 3 → Nat) a + S1000x8x128.size a ≤ S1000x32x128.size a
  inb_S1000x128_S1000x128_0_0 : ∀ a, (![0, 0] : Fin 2 → Nat) a + S1000x128.size a ≤ S1000x128.size a
  h_S1000x128 : 0 < S1000x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x32x128.size a ≤ S50000x32x128.size a
  hwx0_0 : ∀ i : grid0.Coords, EltTy.bits .f32 = 32 ∨ (Rect.block (s := S50000x32x128) S1000x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)

variable [Facts₀]

abbrev win0_0 : Pipeline.Window sig grid0 :=
  Pipeline.Window.ofSpec (Memref.whole main_arg0) S1000x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S50000x32x128 : Shape := ⟨3, ![50000, 32, 128]⟩
abbrev S_ : Shape := ⟨0, ![]⟩
abbrev S50000x128 : Shape := ⟨2, ![50000, 128]⟩

abbrev nBuf : Space → Nat
  | .hbm => 6
  | .vmem => 0
  | .smem => 0
  | _ => 0

abbrev bufTy : (tb : Table) → Fin (tcTables nBuf tb) → BufTy
  | .hbm, ⟨0, _⟩ => ⟨S50000x32x128, .f32⟩
  | .hbm, ⟨1, _⟩ => ⟨S_, .f32⟩
  | .hbm, ⟨2, _⟩ => ⟨S50000x128, .f32⟩
  | .hbm, ⟨3, _⟩ => ⟨S_, .f32⟩
  | .hbm, ⟨4, _⟩ => ⟨S50000x128, .f32⟩
  | .hbm, ⟨5, _⟩ => ⟨S50000x128, .f32⟩
  | _, _ => ⟨S50000x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  reducesTo_S50000x32x128_S50000x128_d1 : S50000x32x128.ReducesTo [1] S50000x128
  h_S_ : 0 < S_.numel
  bcast_S_S50000x128 : S_.BroadcastsInDim S50000x128 (![] : Fin 0 → Fin S50000x128.rank)

variable [Facts₀]

class Facts : Prop extends Facts₀ where

variable [Facts]
-- ==== Proof.MeanLaw.lean ====
/-
  The arithmetic that joins the two programs, on the extended reals.

  Both programs compute, for every node and every feature, the mean of the node's 32 neighbour values
  `a 0, …, a 31`. One of them adds the 32 values in one sum and divides by 32. The other adds them in
  four runs of eight consecutive neighbours (0–7, 8–15, 16–23, 24–31), adds the four partial sums one after
  the other onto zero, and multiplies by the float 2⁻⁵, which is exactly 1/32.

  The two agree on ALL extended reals, infinite values included: addition of extended reals is commutative and
  associative, so a sum may be regrouped freely; and dividing by the nonzero real 32 is, by definition of the
  quotient at the ideal values, multiplying by the real 1/32. No finiteness of the inputs is used.
-/
import Idealize.ShloMosaic.PureOps.Ideal
import Idealize.ShloMosaic.PureOps.Ideal.Laws

noncomputable section

namespace Cert.RowMean

open Idealize.ShloMosaic

/-- Neighbour `k` of the run of eight neighbours that starts at neighbour `o`. -/
def run8 (o : Nat) (ho : o + 8 ≤ 32) (k : Fin 8) : Fin 32 := ⟨o + k.val, by have := k.isLt; omega⟩

@[simp] theorem run8_val (o : Nat) (ho : o + 8 ≤ 32) (k : Fin 8) : (run8 o ho k).val = o + k.val := rfl

/-- A sum over the 32 neighbours is the sum of the sums over the four runs of eight, in any commutative monoid. -/
theorem sum_runs {M : Type} [AddCommMonoid M] (a : Fin 32 → M) :
    ∑ k : Fin 32, a k
      = ((∑ k : Fin 8, a (run8 0 (by norm_num) k) + ∑ k : Fin 8, a (run8 8 (by norm_num) k))
          + ∑ k : Fin 8, a (run8 16 (by norm_num) k)) + ∑ k : Fin 8, a (run8 24 (by norm_num) k) := by
  show ∑ k : Fin (8 + 8 + 8 + 8), a k = _
  rw [Fin.sum_univ_add, Fin.sum_univ_add, Fin.sum_univ_add]
  refine congrArg₂ (· + ·) (congrArg₂ (· + ·) (congrArg₂ (· + ·) ?_ ?_) ?_) ?_ <;>
    exact Finset.sum_congr rfl fun k _ => congrArg a (Fin.ext (by simp <;> omega))

/-- The float word `0x3D000000` (sign 0, exponent 122, fraction 0) denotes 2⁻⁵ = 1/32. -/
theorem ofBits_inv32 : Ideal.ofBits .f32 0x3D000000#32 = ((1 / 32 : ℝ) : EReal) := by
  simp [Ideal.ofBits, Ideal.ieee, -EReal.coe_mul]; norm_num

/-- The float word `0x42000000` (sign 0, exponent 132, fraction 0) denotes 2⁵ = 32. -/
theorem ofBits_32 : Ideal.ofBits .f32 0x42000000#32 = ((32 : ℝ) : EReal) := by
  simp [Ideal.ofBits, Ideal.ieee, -EReal.coe_mul]; norm_num

/-- The mean of 32 extended reals: their sum times the real 1/32. -/
def mean32 (a : Fin 32 → EReal) : EReal := (∑ k : Fin 32, a k) * ((1 / 32 : ℝ) : EReal)

/-- Four partial sums of eight added one after the other onto the float zero, then scaled by the float 2⁻⁵, is the mean. -/
theorem runs_scaled_eq_mean (a : Fin 32 → EReal) :
    ((((Ideal.ofBits .f32 0x00000000#32 + ∑ k : Fin 8, a (run8 0 (by norm_num) k))
          + ∑ k : Fin 8, a (run8 8 (by norm_num) k))
          + ∑ k : Fin 8, a (run8 16 (by norm_num) k))
          + ∑ k : Fin 8, a (run8 24 (by norm_num) k)) * Ideal.ofBits .f32 0x3D000000#32 = mean32 a := by
  rw [Ideal.ofBits_zero_f32, zero_add, ofBits_inv32, ← sum_runs]
  rfl

/-- The float zero plus the one sum of all 32, divided by the float 32, is the mean. -/
theorem sum_divided_eq_mean (a : Fin 32 → EReal) :
    Ideal.div (Ideal.ofBits .f32 0x00000000#32 + ∑ k : Fin 32, a k) (Ideal.ofBits .f32 0x42000000#32) = mean32 a := by
  rw [Ideal.ofBits_zero_f32, zero_add, ofBits_32, Ideal.div_coe (by norm_num : (32 : ℝ) ≠ 0)]
  rfl

end Cert.RowMean

end
-- ==== Proof.MeanSpec.lean ====
/-
  The specification: the row mean as one function of the mailbox array.

  The mailbox holds, for each node `n`, each of its 32 neighbours `k` and each of 128 features `f`, one value
  `x (n, k, f)`. The result holds for each node and feature the mean over the neighbours,
  `(∑ k, x (n, k, f)) · (1/32)`, read on the extended reals. It is stated for any number of node rows, so that
  the same function describes the whole array (50000 rows) and one block of it (1000 rows): the mean of a row
  depends on that row alone, which is why the array may be computed block of rows by block of rows.
-/
import proofs.«102704_j1846835937457_2_alg».proof.Proof.MeanLaw
import Idealize.ShloMosaic.PureOps.Ideal

noncomputable section

namespace Cert.RowMean

open Idealize.ShloMosaic

/-- The index `(n, k, f)` of a rank-3 array, from the index `(n, f)` of a rank-2 array and a middle coordinate `k`. -/
def withNeighbour (n0 n1 n2 : Nat) (i : (⟨2, ![n0, n2]⟩ : Shape).Idx) (k : Fin n1) : (⟨3, ![n0, n1, n2]⟩ : Shape).Idx :=
  fun a => match a with
    | ⟨0, _⟩ => ⟨(i 0).val, (i 0).isLt⟩
    | ⟨1, _⟩ => ⟨k.val, k.isLt⟩
    | ⟨2, _⟩ => ⟨(i 1).val, (i 1).isLt⟩

/-- The mean over the 32 neighbours, for every node row and feature of an array of `rows` node rows. -/
def rowMeanOf (rows : Nat) (x : (⟨3, ![rows, 32, 128]⟩ : Shape).Idx → EReal) : (⟨2, ![rows, 128]⟩ : Shape).Idx → EReal :=
  fun i => mean32 fun k => x (withNeighbour rows 32 128 i k)

theorem rowMeanOf_apply (rows : Nat) (x : (⟨3, ![rows, 32, 128]⟩ : Shape).Idx → EReal) (i : (⟨2, ![rows, 128]⟩ : Shape).Idx) :
    rowMeanOf rows x i = mean32 fun k => x (withNeighbour rows 32 128 i k) := rfl

end Cert.RowMean

end
-- ==== Proof.MeanReference.lean ====
/-
  The reference program computes the row mean.

  Its result is the quotient, by the float 32, of the float zero plus the one sum over all 32 neighbours of a
  node's values for a feature. That is the mean (`sum_divided_eq_mean`): the word for 32 denotes the real 32,
  which is not zero, so the quotient is the product with the real 1/32.
-/
import proofs.«102704_j1846835937457_2_alg».proof.Proof.Gen.ReferenceIdeal.Read
import proofs.«102704_j1846835937457_2_alg».proof.Proof.MeanSpec

noncomputable section

namespace Cert.RowMean

open Cert.ReferenceIdeal Cert.ReferenceIdeal.Gen Cert.ReferenceIdeal.Read Idealize.ShloMosaic

/-- The reference's last stage, as a function of the mailbox, is the row mean of its 50000 node rows. -/
theorem reference_eq (x : (⟨S50000x32x128, .f32⟩ : BufTy).Contents (Elt Ideal)) :
    val_main_v2 (F := Ideal) x = rowMeanOf 50000 x := by
  funext i
  refine (val_main_v2_apply (F := Ideal) x i).trans ?_
  rw [val_main_v0_apply, val_main_v1_apply, val_main_cst_0_apply, val_main_cst_apply]
  show Ideal.div (Ideal.ofBits .f32 0x00000000#32 + ∑ k : Fin 32, x (idx_main_v0 i k)) (Ideal.ofBits .f32 0x42000000#32) = _
  refine (sum_divided_eq_mean fun k => x (idx_main_v0 i k)).trans ?_
  -- the neighbour's index as the generated reading spells it is the specification's
  exact congrArg mean32 (funext fun k => congrArg x (funext fun a => by
    match a with | ⟨0, _⟩ => rfl | ⟨1, _⟩ => rfl | ⟨2, _⟩ => rfl))

end Cert.RowMean

end
-- ==== Proof.MeanBlock.lean ====
/-
  What the kernel body leaves in its output block: the row mean of its input block.

  At every grid point the body sees a block of 1000 node rows of the mailbox, `x0 (p, k, f)`. It loads the
  block in four pieces, neighbours 0–7, 8–15, 16–23 and 24–31; sums each piece over its 8 neighbours; adds the
  four partial sums one after the other onto zero; scales by the float 2⁻⁵; and stores the result as the whole
  output block. A piece's sum at `(p, f)` is `∑ k < 8, x0 (p, o + k, f)` with `o` the piece's first neighbour
  (`run_sum`), so the block is the mean over all 32 neighbours (`runs_scaled_eq_mean`).
-/
import proofs.«102704_j1846835937457_2_alg».proof.Proof.Gen.KernelIdeal.Value
import proofs.«102704_j1846835937457_2_alg».proof.Proof.MeanSpec
import Idealize.ShloMosaic.PureOps.Ideal.Laws
import Idealize.ShloMosaic.Lib.Pipeline.Value

noncomputable section

namespace Cert.RowMean

open Cert.KernelIdeal Cert.KernelIdeal.Gen Idealize.ShloMosaic

/-- The sum over its 8 neighbours of the piece of the input block that starts at neighbour `o`, read at the
    row and feature of `y`: the block's values at neighbours `o, …, o + 7` of that row and feature, added.
    (The piece is the block read through the rectangle at offsets `(0, o, 0)`: its element `(p, k, f)` is the
    block's `(p, o + k, f)`.) -/
theorem run_sum (h : S1000x8x128.Reduces [1] S1000x128) (x0 : Vec Ideal S1000x32x128 .f32) (o : Nat) (ho : o + 8 ≤ 32)
    (inb : ∀ a, (![0, o, 0] : Fin 3 → Nat) a + S1000x8x128.size a ≤ S1000x32x128.size a)
    (j y : S1000x128.Idx) (h0 : (j 0).val = (y 0).val) (h1 : (j 1).val = (y 1).val)
    (hφ : FKind.Formats .f32) (hacc : (0x00000000#32 : BitVec 32) = FKind.add.neutral .f32 hφ) :
    multiReduction (F := Ideal) .add [1] S1000x128
        (View.ld (Val := Elt Ideal) (e' := .f32) x0 (Rect.unit (s := S1000x32x128) ![0, o, 0] S1000x8x128.size inb))
        0x00000000#32 h hφ hacc j
      = ∑ k : Fin 8, x0 (withNeighbour 1000 32 128 y (run8 o ho k)) := by
  refine (Ideal.multiReduction_add_single _ _ _ _ _ _).trans ?_
  refine Finset.sum_congr rfl fun k _ => ?_
  show x0 _ = x0 _
  refine congrArg x0 (funext fun a => Fin.ext ?_)
  match a with
  | ⟨0, _⟩ => show 0 + 1 * (j 0).val = (y 0).val; omega
  | ⟨1, _⟩ => show o + 1 * k.val = o + k.val; omega
  | ⟨2, _⟩ => show 0 + 1 * (j 1).val = (y 1).val; omega

/-- The output block the body leaves is the row mean of the input block (1000 node rows). -/
theorem block_value (x0 : Vec Ideal S1000x32x128 .f32) : out0_1 x0 = rowMeanOf 1000 x0 := by
  funext y
  unfold out0_1
  refine (Cert.KernelIdeal.Value.canon1_eq (F := Ideal) _ _ _ _ y).trans ?_
  refine Eq.trans ?_ (runs_scaled_eq_mean fun k => x0 (withNeighbour 1000 32 128 y k))
  show (((((Ideal.ofBits .f32 0x00000000#32 : EReal) + _) + _) + _) + _) * (Ideal.ofBits .f32 0x3D000000#32 : EReal) = _
  refine congrArg (fun s : EReal => s * Ideal.ofBits .f32 0x3D000000#32) ?_
  refine congrArg₂ (fun s u : EReal => s + u) (congrArg₂ (fun s u : EReal => s + u) (congrArg₂ (fun s u : EReal => s + u)
    (congrArg (fun u : EReal => Ideal.ofBits .f32 0x00000000#32 + u) ?_) ?_) ?_) ?_
  · exact run_sum _ x0 0 (by norm_num) _ (Cert.KernelIdeal.Value.ix1_0 y) y rfl rfl _ _
  · exact run_sum _ x0 8 (by norm_num) _ (Cert.KernelIdeal.Value.ix1_1 y) y rfl rfl _ _
  · exact run_sum _ x0 16 (by norm_num) _ (Cert.KernelIdeal.Value.ix1_2 y) y rfl rfl _ _
  · exact run_sum _ x0 24 (by norm_num) _ (Cert.KernelIdeal.Value.ix1_3 y) y rfl rfl _ _

end Cert.RowMean

end
-- ==== Proof.MeanKernel.lean ====
/-
  From blocks to the array: the kernel's result array is the row mean of the mailbox.

  The grid has 50 points. Point `t` reads rows `1000 t … 1000 t + 999` of the mailbox (all 32 neighbours, all
  128 features) and writes back rows `1000 t … 1000 t + 999` of the result (all 128 features). What it writes
  is the row mean of the rows it read (`block_value`), and the mean of a row depends on that row alone, so it is
  block `t` of the row mean of the whole mailbox (`flushed_eq`). Every row `r` of the result lies in the block
  of point `r / 1000` (`covered`). So after the run the result array is the row mean of the mailbox.
-/
import proofs.«102704_j1846835937457_2_alg».proof.Proof.MeanBlock
import Idealize.ShloMosaic.Lib.Pipeline.Value

noncomputable section

namespace Cert.RowMean

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The printed index maps, decided over the 50 grid points: the input block and the output block sit at the same
    block of rows; the input block starts at neighbour 0 and feature 0, the output block at feature 0. -/
theorem idx_facts : ∀ t : Fin cfg0.N,
    win0_0.index t (0 : Fin 3) = win0_1.index t (0 : Fin 2)
    ∧ win0_0.index t (1 : Fin 3) = 0
    ∧ win0_0.index t (2 : Fin 3) = 0
    ∧ win0_1.index t (1 : Fin 2) = 0 :=
  (by decide +kernel : ∀ t : Fin grid0.N, _)

/-- Every one of the 50 blocks of rows of the result is some grid point's. -/
theorem idx_onto : ∀ q0 : Fin 50, ∃ t : Fin cfg0.N, win0_1.index t = ![q0.val, 0] :=
  (by decide +kernel : ∀ q0 : Fin 50, ∃ t : Fin grid0.N, win0_1.index t = ![q0.val, 0])

/-- What point `t` writes back is block `t` of the row mean of the mailbox as the region finds it. -/
theorem flushed_eq (c : Dev nD) (t : Fin cfg0.N) :
    (dats m 0 c).flushed 1 t = ((cfg0.win 1).blk t).view.read (Elt Ideal) (rowMeanOf 50000 (V m c main_arg0)) := by
  rw [Cert.KernelIdeal.Value.flushed1]
  obtain ⟨e0, e1, e2, e3⟩ := idx_facts t
  funext y
  show out0_1 (iblk m c 0 t) y = rowMeanOf 50000 (V m c main_arg0) (((cfg0.win 1).blk t).view.emb y)
  refine (congrFun (block_value (iblk m c 0 t)) y).trans ?_
  show mean32 (fun k => iblk m c 0 t (withNeighbour 1000 32 128 y k))
    = mean32 (fun k => V m c main_arg0 (withNeighbour 50000 32 128 (((cfg0.win 1).blk t).view.emb y) k))
  refine congrArg mean32 (funext fun k => ?_)
  -- the input block's element (p, k, f) is the mailbox's (1000 t + p, k, f)
  show V m c main_arg0 (((cfg0.win 0).blk t).view.emb (withNeighbour 1000 32 128 y k)) = _
  refine congrArg (V m c main_arg0) (funext fun a => Fin.ext ?_)
  match a with
  | ⟨0, _⟩ => show win0_0.index t (0 : Fin 3) * 1000 + 1 * (y 0).val = win0_1.index t (0 : Fin 2) * 1000 + 1 * (y 0).val; omega
  | ⟨1, _⟩ => show win0_0.index t (1 : Fin 3) * 32 + 1 * k.val = k.val; omega
  | ⟨2, _⟩ => show win0_0.index t (2 : Fin 3) * 128 + 1 * (y 1).val = win0_1.index t (1 : Fin 2) * 128 + 1 * (y 1).val; omega

/-- An index of the result is in point `t`'s block iff each coordinate is in the block's range on its axis. -/
theorem mem_blk (t : Fin cfg0.N) (i : S50000x128.Idx) :
    i ∈ ((cfg0.win 1).blk t).view.set ↔ ∀ a : Fin 2, win0_1.index t a * S1000x128.size a ≤ (i a).val ∧ (i a).val < win0_1.index t a * S1000x128.size a + S1000x128.size a := by
  show i ∈ ((View.whole main_v0).slice (win0_1.rect t)).set ↔ _
  rw [View.set_slice_whole, Rect.mem_set_unit]
  exact Iff.rfl

/-- Every index of the result is in the block of some point that writes back: row `r` in that of point `r / 1000`. -/
theorem covered (i : S50000x128.Idx) :
    ∃ t : Fin cfg0.N, (cfg0.win 1).flush t = true ∧ i ∈ ((cfg0.win 1).blk t).view.set := by
  have hi0 : (i 0).val < 50000 := (i 0).isLt
  have hi1 : (i 1).val < 128 := (i 1).isLt
  obtain ⟨t, ht⟩ := idx_onto ⟨(i 0).val / 1000, by omega⟩
  have q0 : win0_1.index t (0 : Fin 2) = (i 0).val / 1000 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 1000 ≤ (i 0).val ∧ (i 0).val < win0_1.index t (0 : Fin 2) * 1000 + 1000; omega
  | ⟨1, _⟩ => show win0_1.index t (1 : Fin 2) * 128 ≤ (i 1).val ∧ (i 1).val < win0_1.index t (1 : Fin 2) * 128 + 128; omega

/-- The result array after the run is the row mean of the mailbox. -/
theorem final (c : Dev nD) :
    (dats m 0 c).arrAt 1 cfg0.N = rowMeanOf 50000 (m ((c : Thread nD τ).loc main_arg0)) :=
  (dats m 0 c).arrAt_eq_of_cover 1 (rowMeanOf 50000 (V m c main_arg0)) (fun t _ => flushed_eq m c t) covered

/-- The kernel's run, read: every weakly fair execution terminates with the result array at the row mean of the
    mailbox as launched, and the mailbox unchanged. -/
theorem kernel_run : θ_run defs (onTc (τ := τ) (main (F := Ideal))) ⟨m, fun _ => 0, ρ⟩ fun r => ∀ c : Dev nD,
      r.2.mem ((c : Thread nD τ).loc main_v0) = rowMeanOf 50000 (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.RowMean

end
-- ==== Proof.lean ====
/-
  A node's aggregate is the mean of its 32 neighbours' messages, feature by feature.

  The kernel walks the 50000 nodes in 50 blocks of 1000. For a block it adds the neighbours in four runs of
  eight, adds the four partial sums onto zero, and scales by the float 2⁻⁵; the reference adds all 32 neighbours
  in one sum and divides by the float 32. Read on the extended reals both are `(∑ k, x (n, k, f)) · (1/32)`:
  2⁻⁵ is exactly 1/32, a quotient by the nonzero real 32 is the product with 1/32, and a sum of extended reals
  may be regrouped freely because their addition is commutative and associative. So the two results agree at
  every input, finite or not; the precondition is not used.

  MeanLaw: that arithmetic. MeanSpec: the row mean as one function of the mailbox. MeanReference: the reference
  computes it. MeanBlock: the kernel body leaves it in each block. MeanKernel: the blocks make up the array.
  Here: the five claims.
-/
import proofs.«102704_j1846835937457_2_alg».proof.Defs
import proofs.«102704_j1846835937457_2_alg».proof.Proof.Gen.Kernel
import proofs.«102704_j1846835937457_2_alg».proof.Proof.Gen.Kernel.Skeleton
import proofs.«102704_j1846835937457_2_alg».proof.Proof.Gen.Kernel.Launch
import proofs.«102704_j1846835937457_2_alg».proof.Proof.Gen.Kernel.Points
import proofs.«102704_j1846835937457_2_alg».proof.Proof.Gen.Kernel.Frame
import proofs.«102704_j1846835937457_2_alg».proof.Proof.Gen.KernelIdeal
import proofs.«102704_j1846835937457_2_alg».proof.Proof.Gen.KernelIdeal.Skeleton
import proofs.«102704_j1846835937457_2_alg».proof.Proof.Gen.KernelIdeal.Launch
import proofs.«102704_j1846835937457_2_alg».proof.Proof.Gen.KernelIdeal.Points
import proofs.«102704_j1846835937457_2_alg».proof.Proof.Gen.KernelIdeal.Frame
import proofs.«102704_j1846835937457_2_alg».proof.Proof.Gen.KernelIdeal.Value
import proofs.«102704_j1846835937457_2_alg».proof.Proof.Gen.ReferenceIdeal
import proofs.«102704_j1846835937457_2_alg».proof.Proof.Gen.ReferenceIdeal.Run
import proofs.«102704_j1846835937457_2_alg».proof.Proof.Gen.ReferenceIdeal.Read
import proofs.«102704_j1846835937457_2_alg».proof.Proof.Gen.Pre_finite_inputs
import proofs.«102704_j1846835937457_2_alg».proof.Proof.MeanReference
import proofs.«102704_j1846835937457_2_alg».proof.Proof.MeanKernel
import Idealize.ShloMosaic.Adequacy
import Idealize.ShloMosaic.Init

noncomputable section

namespace Cert.Proof

open Idealize.ShloMosaic Idealize.ShloMosaic.TcCoe Idealize.SL.Sem

/-- The word-level kernel runs and leaves the mailbox unchanged. -/
theorem frame_kernel : Cert.frame_Kernel := fun m ρ _ => Cert.Kernel.Gen.frame m ρ

/-- The idealized kernel runs and leaves the mailbox unchanged. -/
theorem frame_kernelIdeal : Cert.frame_KernelIdeal := fun m ρ _ => Cert.KernelIdeal.Gen.frame m ρ

/-- The idealized reference runs and leaves the mailbox unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From mailboxes that agree, both idealized programs end with the row mean of the mailbox in their result. -/
theorem algebraic : Cert.algebraic_KernelIdeal_ReferenceIdeal := by
  intro m ρ m' ρ' _ hagree
  refine ⟨fun c => Cert.RowMean.rowMeanOf 50000 (m ((c.tc : Thread Cert.KernelIdeal.nD Cert.KernelIdeal.τ).loc Cert.KernelIdeal.main_arg0)),
    Cert.RowMean.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.RowMean.reference_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
